-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S50000x64 .f32) (main_arg1 : IVec S2x800000 32) (main_arg2 : FVec F S64x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S50000x64 : Shape := ⟨2, ![50000, 64]⟩
abbrev S2x800000 : Shape := ⟨2, ![2, 800000]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x64 : Shape := ⟨2, ![64, 64]⟩
abbrev S5000x64 : Shape := ⟨2, ![5000, 64]⟩
abbrev S5000x1 : Shape := ⟨2, ![5000, 1]⟩

abbrev nBuf : Space → Nat
  | .hbm => 32
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S50000x64, .f32⟩
  | .hbm, ⟨18, _⟩ => ⟨S800000x1, .i32⟩
  | .hbm, ⟨19, _⟩ => ⟨S50000x64, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  slices_S64x128_S64x64_0_0 : S64x128.Slices ![0, 0] S64x64
  transposes_S64x64_S64x64_1_0 : S64x64.Transposes [1, 0] S64x64
  slices_S64x128_S64x64_0_64 : S64x128.Slices ![0, 64] S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S128x64 : Shape := ⟨2, ![128, 64]⟩

abbrev nBuf : Space → Nat
  | .hbm => 38
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S50000x64, .f32⟩
  | .hbm, ⟨18, _⟩ => ⟨S800000x1, .i32⟩
  | .hbm, ⟨19, _⟩ => ⟨S50000x64, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .f32⟩
  | .hbm, ⟨31, _⟩ => ⟨S50000x64, .f32⟩
  | .hbm, ⟨32, _⟩ => ⟨S50000x128, .f32⟩
  | .hbm, ⟨33, _⟩ => ⟨S128x64, .f32⟩
  | .hbm, ⟨34, _⟩ => ⟨S50000x64, .f32⟩
  | .hbm, ⟨35, _⟩ => ⟨S_, .f32⟩
  | .hbm, ⟨36, _⟩ => ⟨S50000x64, .f32⟩
  | .hbm, ⟨37, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The layer, as one function of four arrays.  For node n and output feature o,

      out (n, o) = max ( Σ_{k<64} feat (n, k) · W (o, k)  +  Σ_{k<64} (ns (n, k) / max (deg n) 1) · W (o, 64 + k) ) 0 :

  the node's own features against the first 64 columns of the weight, the mean of its in-neighbours' features (the
  neighbour sum ns over the in-degree deg, an isolated node's degree read as 1) against the last 64, then the positive
  part.  Both programs compute this on the extended reals.  One of them contracts the two halves separately and adds;
  the other joins the two feature blocks side by side and contracts all 128 columns at once.  The two agree because a
  sum over 128 columns is the sum over the first 64 plus the sum over the last 64 — a regrouping of a finite sum in a
  commutative monoid, which needs nothing of the summands (no finiteness).
-/
import Idealize.ShloMosaic.PureOps.Ideal
import Idealize.ShloMosaic.Lib.ValueIdx

noncomputable section

namespace Cert.SageSpec

open Idealize.ShloMosaic Idealize.ShloMosaic.ValueIdx
open scoped BigOperators

/-- Column k of the weight's first half (the node's own features). -/
abbrev selfCol (k : Fin 64) : Fin 128 := ⟨k.val, by omega⟩

/-- Column 64 + k of the weight: column k of its second half (the neighbours' mean). -/
abbrev neighCol (k : Fin 64) : Fin 128 := ⟨64 + k.val, by omega⟩

/-- A sum over the 128 columns is the sum over the first 64 plus the sum over the last 64. -/
theorem sum_halves {M : Type*} [AddCommMonoid M] (f : Fin 128 → M) :
    ∑ j : Fin 128, f j = ∑ k : Fin 64, f (selfCol k) + ∑ k : Fin 64, f (neighCol k) := by
  have h : ∑ j : Fin 128, f j = ∑ k : Fin 64, f (Fin.castAdd 64 k) + ∑ k : Fin 64, f (Fin.natAdd 64 k) :=
    Fin.sum_univ_add (a := 64) (b := 64) f
  rw [h]
  exact congrArg₂ (· + ·) (Finset.sum_congr rfl fun k _ => congrArg f (Fin.ext rfl))
    (Finset.sum_congr rfl fun k _ => congrArg f (Fin.ext rfl))

/-- The one (the degree of an isolated node) and the zero (the floor of the positive part), as the programs spell them. -/
abbrev one : EReal := Ideal.ofBits .f32 0x3F800000#32
abbrev zero : EReal := Ideal.ofBits .f32 0x00000000#32

/-- The mean of the neighbours' feature k at node n: the neighbour sum over the degree, the degree at least one. -/
abbrev mean (ns : (⟨2, ![50000, 64]⟩ : Shape).Idx → EReal) (deg : (⟨1, ![50000]⟩ : Shape).Idx → EReal)
    (n : Fin 50000) (k : Fin 64) : EReal :=
  Ideal.div (ns (ix2 n k)) (max (deg (ix1 n)) one)

/-- The layer's output as a function of the features, the neighbour sums, the degrees and the weight. -/
def G (feat ns : (⟨2, ![50000, 64]⟩ : Shape).Idx → EReal) (deg : (⟨1, ![50000]⟩ : Shape).Idx → EReal)
    (W : (⟨2, ![64, 128]⟩ : Shape).Idx → EReal) : (⟨2, ![50000, 64]⟩ : Shape).Idx → EReal := fun j =>
  max ((∑ k : Fin 64, feat (ix2 (j 0) k) * W (ix2 (j 1) (selfCol k)))
      + ∑ k : Fin 64, mean ns deg (j 0) k * W (ix2 (j 1) (neighCol k))) zero

theorem G_apply (feat ns : (⟨2, ![50000, 64]⟩ : Shape).Idx → EReal) (deg : (⟨1, ![50000]⟩ : Shape).Idx → EReal)
    (W : (⟨2, ![64, 128]⟩ : Shape).Idx → EReal) (n : Fin 50000) (o : Fin 64) :
    G feat ns deg W (ix2 n o)
      = max ((∑ k : Fin 64, feat (ix2 n k) * W (ix2 o (selfCol k)))
          + ∑ k : Fin 64, mean ns deg n k * W (ix2 o (neighCol k))) zero := rfl

end Cert.SageSpec

end
-- ==== Proof.RefValue.lean ====
/-
  The reference's result is the layer's function of the features, the neighbour sums, the degrees and the weight.

  Its last stages: the quotient ns / max(deg, 1) (the degree broadcast along the feature axis), the features and that
  quotient joined side by side into rows of 128, the contraction of those rows with the transposed weight, the positive
  part.  Read at (n, o): the contraction is a sum over the 128 joined columns of (joined row n at j) · W (o, j); the first
  64 joined columns are the node's own features and the last 64 the neighbours' mean, so splitting the sum at 64 gives the
  two half-sums of the layer's function.  The neighbour sums and the degrees themselves (the gather and the two
  scatter-adds before them) are kept as the stages the reference names: nothing of them is opened.
-/
import proofs.«179883_j81329500717452_2_alg».proof.Proof.Gen.ReferenceIdeal.Read
import proofs.«179883_j81329500717452_2_alg».proof.Proof.Spec
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.SageSpec
open scoped BigOperators

variable (x0 : (⟨S50000x64, .f32⟩ : BufTy).Contents (Elt Ideal)) (x1 : (⟨S2x800000, .i32⟩ : BufTy).Contents (Elt Ideal))
  (x2 : (⟨S64x128, .f32⟩ : BufTy).Contents (Elt Ideal))

/-- Column k < 64 of joined row n is the node's own feature k. -/
theorem joined_self (n : Fin 50000) (o : Fin 64) (k : Fin 64) :
    val_main_v23 (F := Ideal) x0 x1 (lidx_main_v25 (ix2 n o) (selfCol k)) = x0 (ix2 n k) := by
  unfold val_main_v23
  refine concatenate_pair_apply_left _ _ _ concatenates_S50000x64_S50000x64_S50000x128_d1 _ rfl (ix2 n k) fun b => ?_
  match b with
  | ⟨0, _⟩ => rfl
  | ⟨1, _⟩ => rfl

/-- Column 64 + k of joined row n is the quotient's entry (n, k). -/
theorem joined_neigh (n : Fin 50000) (o : Fin 64) (k : Fin 64) :
    val_main_v23 (F := Ideal) x0 x1 (lidx_main_v25 (ix2 n o) (neighCol k)) = val_main_v22 (F := Ideal) x0 x1 (ix2 n k) := by
  unfold val_main_v23
  refine concatenate_pair_apply_right _ _ _ concatenates_S50000x64_S50000x64_S50000x128_d1 _ rfl rfl (ix2 n k) (fun b hb => ?_) ?_
  · match b, hb with
    | ⟨0, _⟩, _ => rfl
    | ⟨1, _⟩, hb => exact absurd rfl hb
  · show k.val + 64 = 64 + k.val
    omega

/-- The degree's index behind the two broadcasts at (n, k) is n. -/
theorem idx_deg (n : Fin 50000) (k : Fin 64) : idx_main_v20 (idx_main_v21 (ix2 n k)) = ix1 n :=
  funext fun a => match a with | ⟨0, _⟩ => rfl

/-- The quotient at (n, k) is the mean of the neighbours' feature k at node n. -/
theorem quotient_apply (n : Fin 50000) (k : Fin 64) :
    val_main_v22 (F := Ideal) x0 x1 (ix2 n k) = mean (val_main_v13 (F := Ideal) x0 x1) (val_main_v17 (F := Ideal) x1) n k := by
  rw [val_main_v22_apply, val_main_v21_apply, val_main_v20_apply, val_main_v19_apply, val_main_v18_apply,
    val_main_cst_3_apply, idx_deg]
  rfl

/-- The transposed weight at (j, o) is the weight at (o, j). -/
theorem weight_apply (n : Fin 50000) (o : Fin 64) (j : Fin 128) :
    val_main_v24 (F := Ideal) x2 (ridx_main_v25 (ix2 n o) j) = x2 (ix2 o j) := by
  rw [val_main_v24_apply]
  exact congrArg x2 (funext fun a => match a with | ⟨0, _⟩ => rfl | ⟨1, _⟩ => rfl)

/-- The reference's result stage is the layer's function of the features, its neighbour-sum stage, its degree stage and
    the weight. -/
theorem result_eq :
    val_main_v26 (F := Ideal) x0 x1 x2 = G x0 (val_main_v13 (F := Ideal) x0 x1) (val_main_v17 (F := Ideal) x1) x2 := by
  funext j
  obtain ⟨n, o, rfl⟩ : ∃ (n : Fin 50000) (o : Fin 64), j = ix2 n o := ⟨j 0, j 1, eq_ix2 j⟩
  rw [G_apply, val_main_v26_apply, val_main_v25_apply, val_main_call0_v0_apply, val_main_call0_cst_apply, sum_halves,
    Ideal.maximumf_def, Ideal.ofBits_def]
  refine congrArg₂ max (congrArg₂ (· + ·) (Finset.sum_congr rfl fun k _ => ?_) (Finset.sum_congr rfl fun k _ => ?_)) rfl
  · rw [joined_self, weight_apply]
  · rw [joined_neigh, weight_apply, quotient_apply]

end Cert.ReferenceIdeal.RefValue

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.Payload.lean ====
/-
  What the kernel body stores, read at one entry.

  At a grid point the body holds a block of 5000 rows of the features (feat), of the neighbour sums (ns) and of the
  degrees (deg, one column), and the two 64 x 64 weight halves (ws, wn).  It divides each row of ns by max(deg, 1) of
  that row, contracts feat with ws and the quotient with wn over the 64 input features — each product into a zero
  accumulator, so each is the plain sum —, adds the two and takes the positive part.  The roundings to the narrower
  float format on the way into the products are the identity on the extended reals.  So at (p, q) the stored value is

      max ( Σ_i feat (p, i) · ws (i, q)  +  Σ_i (ns (p, i) / max (deg (p, 0)) 1) · wn (i, q) ) 0 .
-/
import proofs.«179883_j81329500717452_2_alg».proof.Proof.Gen.KernelIdeal.Skeleton
import proofs.«179883_j81329500717452_2_alg».proof.Proof.Spec
import proofs.«179883_j81329500717452_2_alg».proof.Proof.LibDot
import proofs.«179883_j81329500717452_2_alg».proof.Proof.LibColumnLayout
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.ValueIdx Cert.SageSpec
open scoped BigOperators

/-! ## The products' dimension numbers: contract the left operand's axis 1 with the right operand's axis 0 -/

theorem lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q

theorem rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q

theorem rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block of 5000 rows against a 64 x 64 matrix, into a zero accumulator, at (p, q): the sum over the 64 features. -/
theorem product_apply {φ₁ φ₂ : FTy} (lhs : FVec Ideal S5000x64 φ₁) (rhs : FVec Ideal S64x64 φ₂) (p : Fin 5000) (q : Fin 64) :
    FloatOps.matmul dot_S5000x64_S64x64_S5000x64_1_0_0_1_n_n none lhs rhs (constant S5000x64 .f32 0x00000000#32) (ix2 p q)
      = ∑ i : Fin 64, lhs (ix2 p i) * rhs (ix2 i q) :=
  Cert.LibDot.matmul_zero_apply dot_S5000x64_S64x64_S5000x64_1_0_0_1_n_n rfl rfl lhs_row lhs_col rhs_row rhs_col none lhs rhs p q

/-! ## The stored value -/

/-- The body's stored value at (p, q), from the blocks it loaded. -/
theorem pay_apply (deg : Vec Ideal S5000x1 .f32) (ns feat : Vec Ideal S5000x64 .f32) (ws wn : Vec Ideal S64x64 .f32)
    (p : Fin 5000) (q : Fin 64) :
    k0_pay1 (F := Ideal) deg ns feat ws wn (ix2 p q)
      = max ((∑ i : Fin 64, feat (ix2 p i) * ws (ix2 i q))
          + ∑ i : Fin 64, Ideal.div (ns (ix2 p i)) (max (deg (ix2 p (0 : Fin 1))) one) * wn (ix2 i q)) zero := by
  unfold k0_pay1
  rw [maximumf_apply, addf_apply, broadcast_apply]
  refine congrArg₂ max (congrArg₂ (· + ·) ((product_apply _ _ p q).trans (Finset.sum_congr rfl fun i _ => ?_))
    ((product_apply _ _ p q).trans (Finset.sum_congr rfl fun i _ => ?_))) rfl
  · rw [truncf_apply, truncf_apply, shapeCast_self]
  · rw [truncf_apply, truncf_apply, divf_apply, shapeCast_self, shapeCast_self,
      Cert.LibColumnLayout.broadcastTo_a1_ab_apply, maximumf_apply, shapeCast_self, broadcast_apply]
    rfl

end Cert.KernelIdeal.Body

end
-- ==== Proof.HostArrays.lean ====
/-
  The arrays the kernel's windows stage, as the region finds them.

  Before the region the program computes, from the features, the edge list and the weight: the neighbour sums (gather
  the source rows, scatter-add them at the destinations), the degrees (scatter-add ones at the destinations) recast as a
  column, and the two 64 x 64 halves of the weight, each transposed.  The neighbour sums and the degrees are the very
  operations, with the very dimension numbers and literals, that the other program applies to the same arguments; they
  are identified here once with that program's two stages and never opened.  The recast column at (n, 0) is the degree
  at n; the transposed first half at (k, o) is the weight at (o, k) and the transposed second half the weight at
  (o, 64 + k).
-/
import proofs.«179883_j81329500717452_2_alg».proof.Proof.Gen.KernelIdeal.Frame
import proofs.«179883_j81329500717452_2_alg».proof.Proof.Gen.ReferenceIdeal.Read
import proofs.«179883_j81329500717452_2_alg».proof.Proof.Spec
import proofs.«179883_j81329500717452_2_alg».proof.Proof.LibColumnLayout
import Idealize.ShloMosaic.Lib.Pipeline.Value
import Idealize.ShloMosaic.Lib.StableHlo.Run

noncomputable section

namespace Cert.KernelIdeal.HostArrays

open Cert.KernelIdeal Cert.KernelIdeal.Gen
open Idealize.ShloMosaic Idealize.ShloMosaic.TcCoe Idealize.SL.Sem Idealize.ShloMosaic.StableHlo
open Idealize.ShloMosaic.ValueIdx Cert.SageSpec

variable (m : (ℓ : Loc nD τ sig) → Buf (Elt Ideal) ℓ)

/-- The neighbour sums as a function of the features and the edge list (the other program's stage of the same name). -/
abbrev neighSum (c : Dev nD) : S50000x64.Idx → EReal :=
  Cert.ReferenceIdeal.Read.val_main_v13 (F := Ideal) (m ((c : Thread nD τ).loc main_arg0)) (m ((c : Thread nD τ).loc main_arg1))

/-- The degrees as a function of the edge list. -/
abbrev degree (c : Dev nD) : S50000.Idx → EReal :=
  Cert.ReferenceIdeal.Read.val_main_v17 (F := Ideal) (m ((c : Thread nD τ).loc main_arg1))

/-- The region finds the neighbour sums in the second window's array. -/
theorem neighSum_found (c : Dev nD) : (V m c main_v13 : S50000x64.Idx → EReal) = neighSum m c := by
  dsimp only [V, hostOps0]
  after_results <;> rfl

/-- The third window's array is the degrees recast as a column. -/
theorem degree_found (c : Dev nD) :
    (V m c main_v18 : S50000x1.Idx → EReal) = shapeCast S50000x1 (degree m c) shapeCasts_S50000_S50000x1 := by
  dsimp only [V, hostOps0]
  after_results <;> rfl

theorem degree_apply (c : Dev nD) (n : Fin 50000) (u : Fin 1) :
    (V m c main_v18 : S50000x1.Idx → EReal) (ix2 n u) = degree m c (ix1 n) := by
  rw [degree_found]
  exact Cert.LibColumnLayout.shapeCast_a_a1_apply _ _ n u

/-- The fourth window's array is the weight's first 64 columns, transposed. -/
theorem selfHalf_found (c : Dev nD) :
    (V m c main_v20 : S64x64.Idx → EReal)
      = transpose S64x64 [1, 0] (extractStridedSlice S64x64 ![0, 0] (m ((c : Thread nD τ).loc main_arg2)) slices_S64x128_S64x64_0_0)
          transposes_S64x64_S64x64_1_0 := by
  dsimp only [V, hostOps0]
  after_results <;> rfl

theorem selfHalf_apply (c : Dev nD) (k o : Fin 64) :
    (V m c main_v20 : S64x64.Idx → EReal) (ix2 k o)
      = (m ((c : Thread nD τ).loc main_arg2) : S64x128.Idx → EReal) (ix2 o (selfCol k)) := by
  rw [selfHalf_found]
  refine (transpose_apply [1, 0] _ transposes_S64x64_S64x64_1_0 (ix2 k o) (ix2 o k) (fun b => match b with
    | ⟨0, _⟩ => rfl
    | ⟨1, _⟩ => rfl)).trans ?_
  exact extractStridedSlice_apply ![0, 0] _ slices_S64x128_S64x64_0_0 (ix2 o k) (ix2 o (selfCol k)) (fun a => match a with
    | ⟨0, _⟩ => by show o.val = 0 + o.val; omega
    | ⟨1, _⟩ => by show k.val = 0 + k.val; omega)

/-- The fifth window's array is the weight's last 64 columns, transposed. -/
theorem neighHalf_found (c : Dev nD) :
    (V m c main_v22 : S64x64.Idx → EReal)
      = transpose S64x64 [1, 0] (extractStridedSlice S64x64 ![0, 64] (m ((c : Thread nD τ).loc main_arg2)) slices_S64x128_S64x64_0_64)
          transposes_S64x64_S64x64_1_0 := by
  dsimp only [V, hostOps0]
  after_results <;> rfl

theorem neighHalf_apply (c : Dev nD) (k o : Fin 64) :
    (V m c main_v22 : S64x64.Idx → EReal) (ix2 k o)
      = (m ((c : Thread nD τ).loc main_arg2) : S64x128.Idx → EReal) (ix2 o (neighCol k)) := by
  rw [neighHalf_found]
  refine (transpose_apply [1, 0] _ transposes_S64x64_S64x64_1_0 (ix2 k o) (ix2 o k) (fun b => match b with
    | ⟨0, _⟩ => rfl
    | ⟨1, _⟩ => rfl)).trans ?_
  exact extractStridedSlice_apply ![0, 64] _ slices_S64x128_S64x64_0_64 (ix2 o k) (ix2 o (neighCol k)) (fun a => match a with
    | ⟨0, _⟩ => by show o.val = 0 + o.val; omega
    | ⟨1, _⟩ => by show 64 + k.val = 64 + k.val; rfl)

end Cert.KernelIdeal.HostArrays

end
-- ==== Proof.KernelValue.lean ====
/-
  The kernel's result array after the run is the layer's function of the arguments.

  The grid has ten points; point t reads rows 5000 t .. 5000 t + 4999 of the features, of the neighbour sums and of the
  degree column, reads both 64 x 64 weight halves whole, and writes the same rows of the result.  What it writes at
  block entry (p, q) is the body's stored value of those blocks, which is the layer's function at (5000 t + p, q): the
  block rows are rows 5000 t + p of the arrays, the degree column at that row is the degree of that node, and the
  transposed weight halves at (i, q) are the weight at (q, i) and (q, 64 + i).  Row r of the result lies in the block of
  point r / 5000, so the ten blocks cover the array and it ends holding the layer's function everywhere.
-/
import proofs.«179883_j81329500717452_2_alg».proof.Proof.Gen.KernelIdeal.Value
import proofs.«179883_j81329500717452_2_alg».proof.Proof.Spec
import proofs.«179883_j81329500717452_2_alg».proof.Proof.Payload
import proofs.«179883_j81329500717452_2_alg».proof.Proof.HostArrays
import Idealize.ShloMosaic.Lib.Pipeline.Value

noncomputable section

namespace Cert.KernelIdeal.Result

open Cert.KernelIdeal Cert.KernelIdeal.Gen Cert.KernelIdeal.Value Cert.KernelIdeal.Body Cert.KernelIdeal.HostArrays
open Idealize.ShloMosaic Idealize.ShloMosaic.TcCoe Idealize.SL.Sem
open Idealize.ShloMosaic.ValueIdx Cert.SageSpec
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The block index of each window at point t: the row windows are at block t, the weight halves at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read as rows of its array

  Each read is stated first for an arbitrary array in the window's place — where the block's entry sits in the array is a
  fact about the window alone — and then taken at the array the region finds there. -/

/-- Row p of window 0's block at point t is row 5000 t + p of its array. -/
theorem featBlock_read (A : S50000x64.Idx → EReal) (t : Fin cfg0.N) (p : Fin 5000) (k : Fin 64) (r : Fin 50000) (hr : r.val = t.val * 5000 + p.val) :
    (((cfg0.win 0).blk t).view.read (Elt Ideal) A : Vec Ideal S5000x64 .f32) (ix2 p k) = A (ix2 r k) := by
  obtain ⟨e0, e1, -⟩ := idx_facts t
  rw [View.read_apply]
  show A _ = A _
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Row p of the feature block at point t is row 5000 t + p of the features (which no operation before the region writes). -/
theorem featBlock_apply (c : Dev nD) (t : Fin cfg0.N) (p : Fin 5000) (k : Fin 64) (r : Fin 50000) (hr : r.val = t.val * 5000 + p.val) :
    (iblk m c 0 t : Vec Ideal S5000x64 .f32) (ix2 p k) = (m ((c : Thread nD τ).loc main_arg0) : S50000x64.Idx → EReal) (ix2 r k) := by
  unfold iblk
  exact (featBlock_read (V m c (Pipeline.arrRef spec0 0)) t p k r hr).trans (congrFun (V_main_arg0 m c) (ix2 r k))

/-- Row p of window 1's block at point t is row 5000 t + p of its array. -/
theorem neighBlock_read (A : S50000x64.Idx → EReal) (t : Fin cfg0.N) (p : Fin 5000) (k : Fin 64) (r : Fin 50000) (hr : r.val = t.val * 5000 + p.val) :
    (((cfg0.win 1).blk t).view.read (Elt Ideal) A : Vec Ideal S5000x64 .f32) (ix2 p k) = A (ix2 r k) := by
  obtain ⟨-, -, e0, e1, -⟩ := idx_facts t
  rw [View.read_apply]
  show A _ = A _
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- Row p of the neighbour-sum block at point t is row 5000 t + p of the neighbour sums. -/
theorem neighBlock_apply (c : Dev nD) (t : Fin cfg0.N) (p : Fin 5000) (k : Fin 64) (r : Fin 50000) (hr : r.val = t.val * 5000 + p.val) :
    (iblk m c 1 t : Vec Ideal S5000x64 .f32) (ix2 p k) = neighSum m c (ix2 r k) := by
  unfold iblk
  exact (neighBlock_read (V m c (Pipeline.arrRef spec0 1)) t p k r hr).trans (congrFun (neighSum_found m c) (ix2 r k))

/-- Row p of window 2's one-column block at point t is row 5000 t + p of its array. -/
theorem degBlock_read (A : S50000x1.Idx → EReal) (t : Fin cfg0.N) (p : Fin 5000) (r : Fin 50000) (hr : r.val = t.val * 5000 + p.val) :
    (((cfg0.win 2).blk t).view.read (Elt Ideal) A : Vec Ideal S5000x1 .f32) (ix2 p (0 : Fin 1)) = A (ix2 r (0 : Fin 1)) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- Row p of the degree block at point t is the degree of node 5000 t + p. -/
theorem degBlock_apply (c : Dev nD) (t : Fin cfg0.N) (p : Fin 5000) (r : Fin 50000) (hr : r.val = t.val * 5000 + p.val) :
    (iblk m c 2 t : Vec Ideal S5000x1 .f32) (ix2 p (0 : Fin 1)) = degree m c (ix1 r) := by
  unfold iblk
  exact (degBlock_read (V m c (Pipeline.arrRef spec0 2)) t p r hr).trans (degree_apply m c r (0 : Fin 1))

/-- Window 3's block at any point is its whole array. -/
theorem selfBlock_read (A : S64x64.Idx → EReal) (t : Fin cfg0.N) (i q : Fin 64) :
    (((cfg0.win 3).blk t).view.read (Elt Ideal) A : Vec Ideal S64x64 .f32) (ix2 i q) = A (ix2 i q) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 64 + 1 * i.val = i.val; rw [e0]; omega
  | ⟨1, _⟩ => show win0_3.index t (1 : Fin 2) * 64 + 1 * q.val = q.val; rw [e1]; omega

/-- The first weight block at any point is the whole transposed first half: at (i, q), the weight at (q, i). -/
theorem selfBlock_apply (c : Dev nD) (t : Fin cfg0.N) (i q : Fin 64) :
    (iblk m c 3 t : Vec Ideal S64x64 .f32) (ix2 i q) = (m ((c : Thread nD τ).loc main_arg2) : S64x128.Idx → EReal) (ix2 q (selfCol i)) := by
  unfold iblk
  exact (selfBlock_read (V m c (Pipeline.arrRef spec0 3)) t i q).trans (selfHalf_apply m c i q)

/-- Window 4's block at any point is its whole array. -/
theorem neighWBlock_read (A : S64x64.Idx → EReal) (t : Fin cfg0.N) (i q : Fin 64) :
    (((cfg0.win 4).blk t).view.read (Elt Ideal) A : Vec Ideal S64x64 .f32) (ix2 i q) = A (ix2 i q) := by
  obtain ⟨-, -, -, -, -, -, -, -, e0, e1, -⟩ := idx_facts t
  rw [View.read_apply]
  show A _ = A _
  refine congrArg A (funext fun a => Fin.ext ?_)
  match a with
  | ⟨0, _⟩ => show win0_4.index t (0 : Fin 2) * 64 + 1 * i.val = i.val; rw [e0]; omega
  | ⟨1, _⟩ => show win0_4.index t (1 : Fin 2) * 64 + 1 * q.val = q.val; rw [e1]; omega

/-- The second weight block at any point is the whole transposed second half: at (i, q), the weight at (q, 64 + i). -/
theorem neighWBlock_apply (c : Dev nD) (t : Fin cfg0.N) (i q : Fin 64) :
    (iblk m c 4 t : Vec Ideal S64x64 .f32) (ix2 i q) = (m ((c : Thread nD τ).loc main_arg2) : S64x128.Idx → EReal) (ix2 q (neighCol i)) := by
  unfold iblk
  exact (neighWBlock_read (V m c (Pipeline.arrRef spec0 4)) t i q).trans (neighHalf_apply m c i q)

/-! ## What a point writes back, the cover, and the array after the run -/

/-- The layer's function of the arguments as launched: the result. -/
abbrev result (c : Dev nD) : S50000x64.Idx → EReal :=
  G (m ((c : Thread nD τ).loc main_arg0)) (neighSum m c) (degree m c) (m ((c : Thread nD τ).loc main_arg2))

/-- Point t writes back rows 5000 t .. 5000 t + 4999 of the layer's function. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S5000x64) hz, View.ld_unit_zero (S := S5000x1) hz, View.ld_unit_zero (S := S64x64) hz]
  funext j
  obtain ⟨p, q, rfl⟩ : ∃ (p : Fin 5000) (q : Fin 64), j = ix2 p q := ⟨j 0, j 1, eq_ix2 j⟩
  have ht : t.val < 10 := lt_of_lt_of_eq t.isLt N_0
  obtain ⟨r, hr⟩ : ∃ r : Fin 50000, r.val = t.val * 5000 + p.val :=
    ⟨⟨t.val * 5000 + p.val, by have := p.isLt; omega⟩, rfl⟩
  have hemb : ((cfg0.win 5).blk t).view.emb (ix2 p q) = (ix2 r q : S50000x64.Idx) := by
    obtain ⟨-, -, -, -, -, -, -, -, -, -, e0, e1⟩ := idx_facts t
    funext a
    apply Fin.ext
    match a with
    | ⟨0, _⟩ => show win0_5.index t (0 : Fin 2) * 5000 + 1 * p.val = r.val; rw [e0, hr]; omega
    | ⟨1, _⟩ => show win0_5.index t (1 : Fin 2) * 64 + 1 * q.val = q.val; rw [e1]; omega
  show k0_pay1 (iblk m c 2 t) (iblk m c 1 t) (iblk m c 0 t) (iblk m c 3 t) (iblk m c 4 t) (ix2 p q)
    = result m c (((cfg0.win 5).blk t).view.emb (ix2 p q))
  rw [hemb]
  refine (pay_apply (iblk m c 2 t) (iblk m c 1 t) (iblk m c 0 t) (iblk m c 3 t) (iblk m c 4 t) p q).trans ?_
  show _ = G (m ((c : Thread nD τ).loc main_arg0)) (neighSum m c) (degree m c) (m ((c : Thread nD τ).loc main_arg2)) (ix2 r q)
  rw [G_apply]
  refine congrArg₂ max (congrArg₂ (· + ·) (Finset.sum_congr rfl fun i _ => ?_) (Finset.sum_congr rfl fun i _ => ?_)) rfl
  · exact congrArg₂ (· * ·) (featBlock_apply m c t p i r hr) (selfBlock_apply m c t i q)
  · exact congrArg₂ (· * ·)
      (congrArg₂ Ideal.div (neighBlock_apply m c t p i r hr) (congrArg (fun d => max d one) (degBlock_apply m c t p r hr)))
      (neighWBlock_apply m c t i q)

/-- An index of the result array is in point t's block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- Row r of the result lies in the block of point r / 5000. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, htv⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, htv]; omega
  | ⟨1, _⟩ =>
    show win0_5.index t (1 : Fin 2) * 64 ≤ (i 1).val ∧ (i 1).val < win0_5.index t (1 : Fin 2) * 64 + 64
    rw [e1]; omega

/-- The result array after the run is the layer's function of the arguments. -/
theorem final (c : Dev nD) : (dats m 0 c).arrAt 5 cfg0.N = result m c :=
  (dats m 0 c).arrAt_eq_of_cover 5 (result m c) (fun t _ => flushed_eq m c t) cover

/-- The kernel's run: the result at the layer's function of the arguments, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Result

end
-- ==== Proof.lean ====
/-
  A graph layer with mean aggregation: for node n and output feature o,

      out (n, o) = max ( Σ_{k<64} feat (n, k) · W (o, k)  +  Σ_{k<64} (ns (n, k) / max (deg n) 1) · W (o, 64 + k) ) 0,

  where ns is the sum of the features of n's in-neighbours and deg their number, both computed from the edge list by the
  same gather and scatter-adds in the two programs compared here.

  The tiled program computes the two half-sums separately, ten blocks of 5000 nodes at a time, against the two halves of
  the weight (each transposed beforehand), adds them and takes the positive part.  The plain program joins the features
  and the neighbours' mean into rows of 128, contracts them with the transposed weight in one product, and takes the
  positive part.  On the extended reals the roundings on the way into the products are the identity and each product is
  its plain sum, so the two results differ only in how the 128-term sum is grouped: the first 64 terms plus the last 64.
  That regrouping holds in any commutative monoid, so nothing about the inputs (not even finiteness) is used.

  The modules: Spec (the layer's function and the regrouping), RefValue (the plain program's result is that function),
  Payload (what the tiled program's body stores, at one entry), HostArrays (the arrays its blocks are cut from),
  KernelValue (its result array after the run is that function).  The programs' runs, the tiled program's frame and the
  plain program's stages read at an index are the generated modules imported below.
-/
import proofs.«179883_j81329500717452_2_alg».proof.Defs
import proofs.«179883_j81329500717452_2_alg».proof.Proof.Gen.Kernel
import proofs.«179883_j81329500717452_2_alg».proof.Proof.Gen.Kernel.Skeleton
import proofs.«179883_j81329500717452_2_alg».proof.Proof.Gen.Kernel.Launch
import proofs.«179883_j81329500717452_2_alg».proof.Proof.Gen.Kernel.Points
import proofs.«179883_j81329500717452_2_alg».proof.Proof.Gen.Kernel.Frame
import proofs.«179883_j81329500717452_2_alg».proof.Proof.Gen.KernelIdeal
import proofs.«179883_j81329500717452_2_alg».proof.Proof.Gen.KernelIdeal.Skeleton
import proofs.«179883_j81329500717452_2_alg».proof.Proof.Gen.KernelIdeal.Launch
import proofs.«179883_j81329500717452_2_alg».proof.Proof.Gen.KernelIdeal.Points
import proofs.«179883_j81329500717452_2_alg».proof.Proof.Gen.KernelIdeal.Frame
import proofs.«179883_j81329500717452_2_alg».proof.Proof.Gen.ReferenceIdeal
import proofs.«179883_j81329500717452_2_alg».proof.Proof.Gen.Pre_finite_inputs
import proofs.«179883_j81329500717452_2_alg».proof.Proof.Gen.KernelIdeal.Value
import proofs.«179883_j81329500717452_2_alg».proof.Proof.Gen.ReferenceIdeal.Run
import proofs.«179883_j81329500717452_2_alg».proof.Proof.Gen.ReferenceIdeal.Read
import proofs.«179883_j81329500717452_2_alg».proof.Proof.RefValue
import proofs.«179883_j81329500717452_2_alg».proof.Proof.KernelValue
import Idealize.ShloMosaic.Adequacy
import Idealize.ShloMosaic.Init

noncomputable section

namespace Cert.Proof

open Idealize.ShloMosaic Idealize.SL.Sem

/-- The tiled program, at the word level, runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The plain program runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the tiled program was rewritten for its reading on the extended reals. -/
theorem preserves : Cert.preserves_Kernel_KernelIdeal := trivial

/-- From memories agreeing on the arguments both programs end with the layer's function of the arguments as their
    result: the tiled one block by block, the plain one by splitting its 128-term sums at 64. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v26_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
